-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel

variable [Facts]

def fn {F : FTy → Type} [FloatOps F] (main_arg0 : FVec F S16384x1000 .f32) (main_arg1 : FVec F S16384x1000 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S16384x1000 .f32 := Host.absf main_arg1
  let main_cst_0 : FVec F S_ .f32 := constant S_ .f32 0x7F800000#32
  let main_v5 : FVec F S16384x1000 .f32 := broadcastInDim S16384x1000 ![] bcast_S_S16384x1000 main_cst_0
  let main_v6 : IVec S16384x1000 1 := cmpf .olt main_v4 main_v5
  let main_c_1 : IVec S_ 1 := constantI S_ 1 1#1
  let main_v7 : IVec S_ 1 := (fun x v => Host.reduce IntOp.andi x v reducesTo_S16384x1000_S_d0_1 h_S_) main_v6 main_c_1
  let main_v8 : IVec S_ 1 := andi main_v3 main_v7
  main_v8
-- ==== Kernel.lean ====
abbrev S16384x1000 : Shape := ⟨2, ![16384, 1000]⟩
abbrev S16000x1024 : Shape := ⟨2, ![16000, 1024]⟩
abbrev S2x1x1 : Shape := ⟨3, ![2, 1, 1]⟩
abbrev S1000x1024 : Shape := ⟨2, ![1000, 1024]⟩
abbrev S1x1x1 : Shape := ⟨3, ![1, 1, 1]⟩
abbrev S1x1024 : Shape := ⟨2, ![1, 1024]⟩
abbrev S1024 : Shape := ⟨1, ![1024]⟩
abbrev S1 : Shape := ⟨1, ![1]⟩
abbrev S1x1 : Shape := ⟨2, ![1, 1]⟩
abbrev S_ : Shape := ⟨0, ![]⟩

abbrev nBuf : Space → Nat
  | .hbm => 12
  | .vmem => 7
  | .smem => 0
  | _ => 0

abbrev bufTy : (tb : Table) → Fin (tcTables nBuf tb) → BufTy
  | .hbm, ⟨0, _⟩ => ⟨S16384x1000, .f32⟩
  | .hbm, ⟨1, _⟩ => ⟨S16384x1000, .f32⟩
  | .hbm, ⟨2, _⟩ => ⟨S16000x1024, .f32⟩
  | .hbm, ⟨3, _⟩ => ⟨S16000x1024, .f32⟩
  | .hbm, ⟨4, _⟩ => ⟨S2x1x1, .f32⟩
  | .hbm, ⟨5, _⟩ => ⟨S1x1x1, .f32⟩
  | .hbm, ⟨6, _⟩ => ⟨S_, .f32⟩
  | .hbm, ⟨7, _⟩ => ⟨S1x1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1000x1024, .f32⟩
  | .local _ .vmem, ⟨1, _⟩ => ⟨S1000x1024, .f32⟩
  | .local _ .vmem, ⟨2, _⟩ => ⟨S1000x1024, .f32⟩
  | .local _ .vmem, ⟨3, _⟩ => ⟨S1000x1024, .f32⟩
  | .local _ .vmem, ⟨4, _⟩ => ⟨S1x1x1, .f32⟩
  | .local _ .vmem, ⟨5, _⟩ => ⟨S1x1x1, .f32⟩
  | .local _ .vmem, ⟨6, _⟩ => ⟨S1x1024, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_14 : BitVec 32 := 0#32
  let v27 : BitVec 1 := Scalar.cmpi .ne v26 c0_i32_14
  v27

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16384x1000_S16000x1024 : S16384x1000.ShapeCasts S16000x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  reduces_S1000x1024_S1024 : S1000x1024.Reduces [0] S1024
  shapeCasts_S1024_S1x1024 : S1024.ShapeCasts S1x1024
  reduces_S1x1024_S1 : S1x1024.Reduces [1] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S16000x1024.size a
  hwx0_0 : ∀ i : grid0.Coords, EltTy.bits .f32 = 32 ∨ (Rect.block (s := S16000x1024) S1000x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1024.size a ≤ S16000x1024.size a
  hwx0_1 : ∀ i : grid0.Coords, EltTy.bits .f32 = 32 ∨ (Rect.block (s := S16000x1024) S1000x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1000x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x1000 : Shape := ⟨2, ![16384, 1000]⟩
abbrev S_ : Shape := ⟨0, ![]⟩
abbrev S1000 : Shape := ⟨1, ![1000]⟩

abbrev nBuf : Space → Nat
  | .hbm => 25
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384x1000, .f32⟩
  | .hbm, ⟨2, _⟩ => ⟨S_, .f32⟩
  | .hbm, ⟨3, _⟩ => ⟨S16384x1000, .f32⟩
  | .hbm, ⟨4, _⟩ => ⟨S16384x1000, .i1⟩
  | .hbm, ⟨5, _⟩ => ⟨S_, .f32⟩
  | .hbm, ⟨6, _⟩ => ⟨S_, .f32⟩
  | .hbm, ⟨7, _⟩ => ⟨S16384x1000, .f32⟩
  | .hbm, ⟨8, _⟩ => ⟨S16384x1000, .f32⟩
  | .hbm, ⟨9, _⟩ => ⟨S16384x1000, .f32⟩
  | .hbm, ⟨10, _⟩ => ⟨S16384x1000, .f32⟩
  | .hbm, ⟨11, _⟩ => ⟨S16384x1000, .f32⟩
  | .hbm, ⟨12, _⟩ => ⟨S_, .f32⟩
  | .hbm, ⟨13, _⟩ => ⟨S16384x1000, .f32⟩
  | .hbm, ⟨14, _⟩ => ⟨S16384x1000, .f32⟩
  | .hbm, ⟨15, _⟩ => ⟨S_, .f32⟩
  | .hbm, ⟨16, _⟩ => ⟨S16384x1000, .f32⟩
  | .hbm, ⟨17, _⟩ => ⟨S16384x1000, .f32⟩
  | .hbm, ⟨18, _⟩ => ⟨S_, .f32⟩
  | .hbm, ⟨19, _⟩ => ⟨S1000, .f32⟩
  | .hbm, ⟨20, _⟩ => ⟨S_, .f32⟩
  | .hbm, ⟨21, _⟩ => ⟨S1000, .f32⟩
  | .hbm, ⟨22, _⟩ => ⟨S1000, .f32⟩
  | .hbm, ⟨23, _⟩ => ⟨S_, .f32⟩
  | .hbm, ⟨24, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_cst_5 : Ref sig .tc := ⟨.hbm, 20, rfl⟩
abbrev main_v10 : Ref sig .tc := ⟨.hbm, 21, rfl⟩
abbrev main_v11 : Ref sig .tc := ⟨.hbm, 22, rfl⟩
abbrev main_cst_6 : Ref sig .tc := ⟨.hbm, 23, rfl⟩
abbrev main_v12 : Ref sig .tc := ⟨.hbm, 24, rfl⟩

abbrev nD : Nat := 1
abbrev τ : Topo := Topo.v7x

variable {F : FTy → Type} [FloatOps F]

class Facts₀ : Prop where
  bcast_S_S16384x1000 : S_.BroadcastsInDim S16384x1000 (![] : Fin 0 → Fin S16384x1000.rank)
  reducesTo_S16384x1000_S1000_d0 : S16384x1000.ReducesTo [0] S1000
  h_S_ : 0 < S_.numel
  bcast_S_S1000 : S_.BroadcastsInDim S1000 (![] : Fin 0 → Fin S1000.rank)
  reducesTo_S1000_S_d0 : S1000.ReducesTo [0] S_

variable [Facts₀]

class Facts : Prop extends Facts₀ where

variable [Facts]
-- ==== Proof.Pieces.lean ====
/-
  What one run of the body leaves behind, as values. The body's run is known case by case as a list of stores;
  each list is a single store covering its buffer (preceded, at the first step of a core's sweep, by the store of
  the zero row, which the same step reads back), so what is left is that store's value with every load replaced
  by the contents of the buffer it reads:

  * the accumulator after a step is the step's stored row computed from the label block, the score block and
    the accumulator before it — the zero row at a first step;
  * the output block after a last step is the lane total of the accumulator that step has just stored.
-/
import proofs.«150890_j64244120813576_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A first step (the accumulator is zeroed, then added to): the stored row over the zero row. -/
theorem scratch_A (c : Dev nD) (i : grid0.Coords) (a2 : Memref sig .tc .vmem S1000x1024 .f32) (h2 : a2.IsWhole)
    (a3 : Memref sig .tc .vmem S1000x1024 .f32) (h3 : a3.IsWhole) (a4 : Memref sig .tc .vmem S1x1x1 .f32) (h4 : a4.IsWhole)
    (a5 : Memref sig .tc .vmem S1x1024 .f32) (h5 : a5.IsWhole) (hc0 : cond0_0 i) (hc1 : ¬cond0_1 i)
    (x0 x1 : Vec F S1000x1024 .f32) :
    sout0_A_0 c i a2 h2 a3 h3 a4 h4 a5 h5 hc0 hc1 x0 x1 = k0_pay2 x1 x0 x0 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1024) hz2, View.readCov_unit_zero (S := S1x1024) _ hz2]
  simp only [View.readAt_eq_ld, h2.read_unread, h3.read_unread, View.ld_unit_zero (S := S1000x1024) hz2]

/-- A middle step: the stored row over the accumulator the step before left. -/
theorem scratch_B (c : Dev nD) (i : grid0.Coords) (a2 : Memref sig .tc .vmem S1000x1024 .f32) (h2 : a2.IsWhole)
    (a3 : Memref sig .tc .vmem S1000x1024 .f32) (h3 : a3.IsWhole) (a4 : Memref sig .tc .vmem S1x1x1 .f32) (h4 : a4.IsWhole)
    (a5 : Memref sig .tc .vmem S1x1024 .f32) (h5 : a5.IsWhole) (hc0 : ¬cond0_0 i) (hc1 : ¬cond0_1 i)
    (x0 x1 : Vec F S1000x1024 .f32) (xs0 : Vec F S1x1024 .f32) :
    sout0_B_0 c i a2 h2 a3 h3 a4 h4 a5 h5 hc0 hc1 x0 x1 xs0 = k0_pay2 x1 x0 x0 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz2]
  simp only [View.readAt_eq_ld, h2.read_unread, h3.read_unread, h5.read_unread,
    View.ld_unit_zero (S := S1000x1024) hz2, View.ld_unit_zero (S := S1x1024) hz2]

/-- A last step leaves the accumulator as a middle step does, -/
theorem scratch_C (c : Dev nD) (i : grid0.Coords) (a2 : Memref sig .tc .vmem S1000x1024 .f32) (h2 : a2.IsWhole)
    (a3 : Memref sig .tc .vmem S1000x1024 .f32) (h3 : a3.IsWhole) (a4 : Memref sig .tc .vmem S1x1x1 .f32) (h4 : a4.IsWhole)
    (a5 : Memref sig .tc .vmem S1x1024 .f32) (h5 : a5.IsWhole) (hc0 : ¬cond0_0 i) (hc1 : cond0_1 i)
    (x0 x1 : Vec F S1000x1024 .f32) (xs0 : Vec F S1x1024 .f32) :
    sout0_C_0 c i a2 h2 a3 h3 a4 h4 a5 h5 hc0 hc1 x0 x1 xs0 = k0_pay2 x1 x0 x0 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread,
    View.ld_unit_zero (S := S1000x1024) hz2, View.ld_unit_zero (S := S1x1024) hz2]

/-- and the output block at the lane total of that accumulator. -/
theorem out_C (c : Dev nD) (i : grid0.Coords) (a2 : Memref sig .tc .vmem S1000x1024 .f32) (h2 : a2.IsWhole)
    (a3 : Memref sig .tc .vmem S1000x1024 .f32) (h3 : a3.IsWhole) (a4 : Memref sig .tc .vmem S1x1x1 .f32) (h4 : a4.IsWhole)
    (a5 : Memref sig .tc .vmem S1x1024 .f32) (h5 : a5.IsWhole) (hc0 : ¬cond0_0 i) (hc1 : cond0_1 i)
    (x0 x1 : Vec F S1000x1024 .f32) (xs0 : Vec F S1x1024 .f32) :
    out0_C_2 c i a2 h2 a3 h3 a4 h4 a5 h5 hc0 hc1 x0 x1 xs0 = k0_pay3 (k0_pay2 x1 x0 x0 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3, View.readCov_unit_zero (S := S1x1024) _ hz2]
  simp only [View.readAt_eq_ld, h2.read_unread, h3.read_unread, h5.read_unread,
    View.ld_unit_zero (S := S1000x1024) hz2, View.ld_unit_zero (S := S1x1024) hz2]

end Cert.KernelIdeal.Pieces

end
-- ==== Proof.LibSums.lean ====
/-
  General facts about finite sums, with no program in sight.

  * `sum_mul_coe`, `sum_div`: multiplying by a non-negative real, and dividing by a positive real (the host's and
    the kernel's division at the ideal instance), distribute over EVERY finite sum of extended reals, infinite terms
    or not — the extended reals are not distributive in general, but a non-negative finite factor is harmless. A sum
    of means is the mean of the sum.
  * `sum_range_blocks`: a sum over `n * m` consecutive naturals is the sum over `n` consecutive blocks of `m`, in any
    commutative monoid (a grid that visits an array block by block).
  * `sum_idx1`: a sum over the indices of a one-axis shape is the sum over the axis's coordinate.
-/
import Idealize.ShloMosaic.PureOps.Ideal
import Idealize.ShloMosaic.PureOps.Ideal.Laws
import Idealize.ShloMosaic.Lib.ValueIdx

noncomputable section

namespace Cert.LibSums

open Idealize.ShloMosaic Idealize.ShloMosaic.ValueIdx

/-- Multiplying by a non-negative real distributes over a finite sum of extended reals. -/
theorem sum_mul_coe {ι : Type*} (s : Finset ι) (f : ι → EReal) {k : ℝ} (hk : 0 ≤ k) :
    ∑ i ∈ s, f i * (k : EReal) = (∑ i ∈ s, f i) * (k : EReal) := by
  classical
  induction s using Finset.induction_on with
  | empty => simp
  | insert a s ha ih =>
    rw [Finset.sum_insert ha, Finset.sum_insert ha, ih,
      EReal.right_distrib_of_nonneg_of_ne_top (EReal.coe_nonneg.mpr hk) (EReal.coe_ne_top k)]

/-- Dividing by a positive real distributes over a finite sum of extended reals. -/
theorem sum_div {ι : Type*} (s : Finset ι) (f : ι → EReal) {k : ℝ} (hk : 0 < k) :
    ∑ i ∈ s, Ideal.div (f i) (k : EReal) = Ideal.div (∑ i ∈ s, f i) (k : EReal) := by
  simp only [Ideal.div_coe (ne_of_gt hk)]
  exact sum_mul_coe s f (by positivity)

/-- A sum over `n * m` consecutive naturals is the sum over `n` consecutive blocks of `m`. -/
theorem sum_range_blocks {M : Type*} [AddCommMonoid M] (g : ℕ → M) (m : ℕ) :
    ∀ n : ℕ, ∑ R ∈ Finset.range (n * m), g R = ∑ b ∈ Finset.range n, ∑ r ∈ Finset.range m, g (b * m + r)
  | 0 => by simp
  | n + 1 => by
    rw [Nat.succ_mul, Finset.sum_range_add, sum_range_blocks g m n, Finset.sum_range_succ]

/-- An index of a one-axis shape is its one coordinate, so a sum over such indices is the sum over the coordinate. -/
theorem sum_idx1 {M : Type*} [AddCommMonoid M] {n : ℕ} (g : Fin n → M) :
    ∑ j : (⟨1, ![n]⟩ : Shape).Idx, g (j 0) = ∑ b : Fin n, g b :=
  Fintype.sum_equiv ⟨fun j => j 0, ix1, fun j => (eq_ix1 j).symm, fun _ => rfl⟩ _ _ (fun _ => rfl)

end Cert.LibSums

end
-- ==== Proof.HingeLaw.lean ====
/-
  The arithmetic of the one-vs-rest hinge on the extended reals, with no program in sight.

  * The hinge of a score `x` against a label `y` is `max (1 - s) 0` where `s` is `x` when `0 ≤ y` and `-x`
    otherwise. One program spells `s` as a selection between `x` and `0 - x`, the other as the product of `x`
    with a selected sign `+1` / `-1`; on every extended real `x * 1 = x` and `x * (-1) = -x = 0 - x`, so the two
    spellings are one function (`hinge_of_select`, `hinge_of_sign`).
  * The float words involved denote `0`, `1`, `-1` and `16384`.
  * The loss is the total of the hinge over all 16384 × 1000 score / label pairs, divided by 16384 (`loss`).
  * The general facts about finite sums the two sides need (a sum of quotients by a positive real is the quotient of
    the sum; a sum in blocks) are in Proof/LibSums.lean.
-/
import Idealize.ShloMosaic.PureOps.Ideal
import Idealize.ShloMosaic.PureOps.Ideal.Laws
import Idealize.ShloMosaic.Lib.ValueIdx
import proofs.«150890_j64244120813576_2_alg».proof.Proof.LibSums

noncomputable section

namespace Cert.Hinge

open Idealize.ShloMosaic

/-! ## The float words -/

theorem word_one : Ideal.ofBits .f32 0x3F800000#32 = 1 := by
  simp [Ideal.ofBits, Ideal.ieee, -EReal.coe_mul]; norm_num

theorem word_neg_one : Ideal.ofBits .f32 0xBF800000#32 = -1 := by
  simp [Ideal.ofBits, Ideal.ieee, -EReal.coe_mul]; norm_num

theorem word_16384 : Ideal.ofBits .f32 0x46800000#32 = ((16384 : ℝ) : EReal) := by
  simp [Ideal.ofBits, Ideal.ieee, -EReal.coe_mul]; norm_num

/-! ## The hinge -/

/-- The hinge of a score `x` against a label `y`: `max (1 - x) 0` for a non-negative label, `max (1 + x) 0` for a
    negative one. -/
def hinge (x y : EReal) : EReal := max (1 - (if 0 ≤ y then x else -x)) 0

/-- The signed score spelled as a selection between the score and zero minus the score. -/
theorem hinge_of_select (x y : EReal) :
    max (Ideal.ofBits .f32 0x3F800000#32
        - Scalar.select (Ideal.cmp .oge y (Ideal.ofBits .f32 0x00000000#32)) x (Ideal.ofBits .f32 0x00000000#32 - x))
      (Ideal.ofBits .f32 0x00000000#32) = hinge x y := by
  rw [word_one, Ideal.ofBits_zero_f32]
  unfold hinge
  by_cases h : (0 : EReal) ≤ y
  · simp [Ideal.cmp, h, Scalar.select]
  · simp [Ideal.cmp, h, Scalar.select]

/-- The signed score spelled as the score times a selected sign. -/
theorem hinge_of_sign (x y : EReal) :
    max (Ideal.ofBits .f32 0x3F800000#32
        - x * Scalar.select (Ideal.cmp .oge y (Ideal.ofBits .f32 0x00000000#32))
            (Ideal.ofBits .f32 0x3F800000#32) (Ideal.ofBits .f32 0xBF800000#32))
      (Ideal.ofBits .f32 0x00000000#32) = hinge x y := by
  rw [word_one, word_neg_one, Ideal.ofBits_zero_f32]
  unfold hinge
  by_cases h : (0 : EReal) ≤ y
  · simp [Ideal.cmp, h, Scalar.select]
  · simp [Ideal.cmp, h, Scalar.select, mul_neg]

/-- The loss of a batch of 16384 rows of 1000 scores against as many labels: the total of the hinge over every
    score / label pair, divided by the number of rows. -/
def loss (x y : (⟨2, ![16384, 1000]⟩ : Shape).Idx → EReal) : EReal :=
  Ideal.div (∑ p, hinge (x p) (y p)) ((16384 : ℝ) : EReal)

/-! ## The sum lemmas the loss needs, under this namespace too -/

export Cert.LibSums (sum_mul_coe sum_div sum_range_blocks sum_idx1)

end Cert.Hinge

end
-- ==== Proof.Payload.lean ====
/-
  The body's three stored values, read at an index over the extended reals.

  * The first step stores a row of zeros into the accumulator.
  * Every step stores, at lane `l`, the accumulator's entry plus the sum over the block's 1000 rows of the hinge
    of the score at (row, `l`) against the label there: the comparison, the selection between the score and zero
    minus it, the subtraction from one and the maximum with zero are pointwise, and the sum along the rows is a
    plain finite sum.
  * The last step stores the sum of the accumulator's 1024 lanes.
-/
import proofs.«150890_j64244120813576_2_alg».proof.Proof.Gen.KernelIdeal.Skeleton
import proofs.«150890_j64244120813576_2_alg».proof.Proof.HingeLaw
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Hinge

/-- The row the first step stores is zero at every lane. -/
theorem zero_row (y : S1x1024.Idx) : k0_pay1 (F := Ideal) y = 0 := by
  unfold k0_pay1
  rw [shapeCast_self]
  exact Ideal.ofBits_zero_f32

/-- Inserting row `k` above lane `l` gives the entry (k, l) of a block. -/
theorem lift_rows (l : Fin 1024) (k : Fin 1000) :
    reduces_S1000x1024_S1024.lift (ix1 l) k = (ix2 k l : S1000x1024.Idx) :=
  funext fun a => Fin.ext (by match a with | ⟨0, _⟩ => rfl | ⟨1, _⟩ => rfl)

/-- Inserting lane `k` beside the one row gives the entry (0, k) of the accumulator. -/
theorem lift_lanes (u : Fin 1) (k : Fin 1024) :
    reduces_S1x1024_S1.lift (ix1 u) k = (ix2 u k : S1x1024.Idx) :=
  funext fun a => Fin.ext (by match a with | ⟨0, _⟩ => rfl | ⟨1, _⟩ => rfl)

/-- What every step stores into the accumulator: at lane `l`, the entry it held plus the block's column of hinges. -/
theorem acc_step (lab x : Vec Ideal S1000x1024 .f32) (acc : Vec Ideal S1x1024 .f32) (u : Fin 1) (l : Fin 1024) :
    k0_pay2 (F := Ideal) lab x x acc (ix2 u l)
      = acc (ix2 u l) + ∑ k : Fin 1000, hinge (x (ix2 k l)) (lab (ix2 k l)) := by
  unfold k0_pay2
  simp only [shapeCast_self]
  rw [addf_apply]
  refine congrArg (acc (ix2 u l) + ·) ?_
  refine (shapeCast_apply _ _ (ix2 u l) (ix1 l) ?_).trans ?_
  · rw [Shape.rowMajor_val_one, Shape.rowMajor_val_two]
    have := u.isLt
    show l.val = u.val * 1024 + l.val
    omega
  refine (Ideal.multiReduction_add_single _ 0x00000000#32 reduces_S1000x1024_S1024 (.inl rfl) rfl (ix1 l)).trans ?_
  refine Finset.sum_congr rfl fun (k : Fin 1000) _ => ?_
  rw [lift_rows l k]
  exact hinge_of_select (x (ix2 k l)) (lab (ix2 k l))

/-- What the last step stores into the output block: the sum of the accumulator's lanes. -/
theorem lane_total (acc : Vec Ideal S1x1024 .f32) (a b c : Fin 1) :
    k0_pay3 (F := Ideal) acc (ix3 a b c) = ∑ k : Fin 1024, acc (ix2 0 k) := by
  unfold k0_pay3
  refine (shapeCast_apply _ _ (ix3 a b c) (ix2 0 0) ?_).trans ?_
  · rw [Shape.rowMajor_val_two, Shape.rowMajor_val_three]
    have := a.isLt; have := b.isLt; have := c.isLt
    show 0 * 1 + 0 = (a.val * 1 + b.val) * 1 + c.val
    omega
  refine (shapeCast_apply _ _ (ix2 0 0) (ix1 0) ?_).trans ?_
  · rw [Shape.rowMajor_val_one, Shape.rowMajor_val_two]
    rfl
  refine (Ideal.multiReduction_add_single _ 0x00000000#32 reduces_S1x1024_S1 (.inl rfl) rfl (ix1 0)).trans ?_
  refine Finset.sum_congr rfl fun (k : Fin 1024) _ => ?_
  rw [lift_lanes 0 k]

end Cert.KernelIdeal.Payload

end
-- ==== Proof.Blocks.lean ====
/-
  The grand total of the hinge over a [16000, 1024] array, cut the way the two sweeps visit it.

  Row `R` of the array belongs to block `R / 1000`; blocks 0 … 7 are the first sweep's, 8 … 15 the second's.
  `rowsum b l` is the sum of the hinges of block `b`'s 1000 rows at lane `l`, `sweepTotal q` the sum over the lanes
  of sweep `q`'s eight blocks. The two sweeps' totals add up to the total over every entry of the array: sums of
  extended reals can be regrouped and reordered freely.
-/
import proofs.«150890_j64244120813576_2_alg».proof.Proof.HingeLaw

noncomputable section

namespace Cert.Hinge

open Idealize.ShloMosaic Idealize.ShloMosaic.ValueIdx

/-- The hinge at row `R`, lane `l` of a score array and a label array of shape [16000, 1024]; zero past the last row. -/
def cell (X Y : (⟨2, ![16000, 1024]⟩ : Shape).Idx → EReal) (R : ℕ) (l : Fin 1024) : EReal :=
  if h : R < 16000 then hinge (X (ix2 ⟨R, h⟩ l)) (Y (ix2 ⟨R, h⟩ l)) else 0

theorem cell_of_lt (X Y : (⟨2, ![16000, 1024]⟩ : Shape).Idx → EReal) (R : ℕ) (h : R < 16000) (l : Fin 1024) :
    cell X Y R l = hinge (X (ix2 ⟨R, h⟩ l)) (Y (ix2 ⟨R, h⟩ l)) := dif_pos h

theorem cell_of_ge (X Y : (⟨2, ![16000, 1024]⟩ : Shape).Idx → EReal) (R : ℕ) (h : 16000 ≤ R) (l : Fin 1024) :
    cell X Y R l = 0 := dif_neg (by omega)

/-- The hinges of block `b`'s 1000 rows at lane `l`, summed. -/
def rowsum (X Y : (⟨2, ![16000, 1024]⟩ : Shape).Idx → EReal) (b : ℕ) (l : Fin 1024) : EReal :=
  ∑ r ∈ Finset.range 1000, cell X Y (b * 1000 + r) l

/-- The total of sweep `q`: over the lanes, the sums of its eight blocks. -/
def sweepTotal (X Y : (⟨2, ![16000, 1024]⟩ : Shape).Idx → EReal) (q : ℕ) : EReal :=
  ∑ l : Fin 1024, ∑ j ∈ Finset.range 8, rowsum X Y (8 * q + j) l

/-- Two sweeps of eight are sixteen. -/
theorem two_sweeps {M : Type*} [AddCommMonoid M] (g : ℕ → M) :
    (∑ j ∈ Finset.range 8, g (8 * 0 + j)) + (∑ j ∈ Finset.range 8, g (8 * 1 + j)) = ∑ b ∈ Finset.range 16, g b := by
  rw [show (16 : ℕ) = 8 + 8 from rfl, Finset.sum_range_add]
  simp only [Nat.mul_zero, Nat.zero_add, Nat.mul_one]

/-- The two sweeps' lane totals add up to the total of the hinge over the whole array. -/
theorem total_of_blocks (X Y : (⟨2, ![16000, 1024]⟩ : Shape).Idx → EReal) :
    sweepTotal X Y 0 + sweepTotal X Y 1 = ∑ p, hinge (X p) (Y p) := by
  unfold sweepTotal
  rw [← Finset.sum_add_distrib, sum_idx2 (fun p => hinge (X p) (Y p)), Finset.sum_comm]
  refine Finset.sum_congr rfl fun l _ => ?_
  rw [two_sweeps (fun b => rowsum X Y b l)]
  unfold rowsum
  rw [← sum_range_blocks (fun R => cell X Y R l) 1000 16]
  show ∑ R ∈ Finset.range 16000, cell X Y R l = _
  rw [← Fin.sum_univ_eq_sum_range (fun R => cell X Y R l) 16000]
  exact Finset.sum_congr rfl fun R _ => cell_of_lt X Y R.val R.isLt l

end Cert.Hinge

end
-- ==== Proof.Accum.lean ====
/-
  What the accumulator and the output block hold, point by point, over the extended reals.

  The sixteen grid points are two sweeps of eight steps: point `t` is step `t % 8` of sweep `t / 8`, and it reads
  row block `t` (rows `1000 t … 1000 t + 999`) of the score array and of the label array as the region finds them
  (`scores_apply`, `labels_apply`). So what a point adds to lane `l` of the accumulator is the sum of the hinges of
  its row block at that lane (`col_rowsum`). A sweep's first step leaves `0 +` that in the accumulator and every
  later step adds its own, so after point `t` lane `l` holds the row sums of blocks `t - t % 8 … t` (`acc_closed`, by
  induction on the point); a sweep's last step then writes the sum over the 1024 lanes to the output block, which
  is the sweep's total (`out_at`).
-/
import proofs.«150890_j64244120813576_2_alg».proof.Proof.Gen.KernelIdeal.Frame
import proofs.«150890_j64244120813576_2_alg».proof.Proof.Pieces
import proofs.«150890_j64244120813576_2_alg».proof.Proof.Payload
import proofs.«150890_j64244120813576_2_alg».proof.Proof.Blocks

noncomputable section

namespace Cert.KernelIdeal.Accum

open Cert.KernelIdeal Cert.KernelIdeal.Gen Idealize.ShloMosaic Idealize.ShloMosaic.TcCoe Idealize.ShloMosaic.ValueIdx
  Idealize.SL.Sem Cert.Hinge

variable (m : (ℓ : Loc nD τ sig) → Buf (Elt Ideal) ℓ)

/-! ## A point's blocks -/

/-- The score array and the label array as the region finds them. -/
abbrev X (c : Dev nD) : S16000x1024.Idx → EReal := V m c main_v0
abbrev Y (c : Dev nD) : S16000x1024.Idx → EReal := V m c main_v1

/-- The score block and the label block point `t` reads. -/
abbrev scores (c : Dev nD) (t : Fin cfg0.N) : Vec Ideal S1000x1024 .f32 := iblk m c 0 t
abbrev labels (c : Dev nD) (t : Fin cfg0.N) : Vec Ideal S1000x1024 .f32 := iblk m c 1 t

/-- The windows' block indices, decided over the grid: point `t` reads row block `t` of both inputs and writes
    entry `t / 8` of the result. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 8 ∧ win0_2.index t (1 : Fin 3) = 0 ∧ win0_2.index t (2 : Fin 3) = 0 :=
  (by decide +kernel : ∀ t : Fin grid0.N, _)

/-- Entry (k, l) of point `t`'s score block is entry (1000 t + k, l) of the score array. -/
theorem scores_apply (c : Dev nD) (t : Fin cfg0.N) (k : Fin 1000) (l : Fin 1024) (h : t.val * 1000 + k.val < 16000) :
    scores m c t (ix2 k l) = X m c (ix2 ⟨t.val * 1000 + k.val, h⟩ l) := by
  obtain ⟨e0, e1, -⟩ := idx_facts t
  unfold scores iblk
  rw [View.read_apply]
  show V m c main_v0 _ = V m c main_v0 _
  refine congrArg (V m c main_v0) (funext fun a => Fin.ext ?_)
  match a with
  | ⟨0, _⟩ => show win0_0.index t (0 : Fin 2) * 1000 + 1 * k.val = t.val * 1000 + k.val; omega
  | ⟨1, _⟩ => show win0_0.index t (1 : Fin 2) * 1024 + 1 * l.val = l.val; omega

/-- Entry (k, l) of point `t`'s label block is entry (1000 t + k, l) of the label array. -/
theorem labels_apply (c : Dev nD) (t : Fin cfg0.N) (k : Fin 1000) (l : Fin 1024) (h : t.val * 1000 + k.val < 16000) :
    labels m c t (ix2 k l) = Y m c (ix2 ⟨t.val * 1000 + k.val, h⟩ l) := by
  obtain ⟨-, -, e2, e3, -⟩ := idx_facts t
  unfold labels iblk
  rw [View.read_apply]
  show V m c main_v1 _ = V m c main_v1 _
  refine congrArg (V m c main_v1) (funext fun a => Fin.ext ?_)
  match a with
  | ⟨0, _⟩ => show win0_1.index t (0 : Fin 2) * 1000 + 1 * k.val = t.val * 1000 + k.val; omega
  | ⟨1, _⟩ => show win0_1.index t (1 : Fin 2) * 1024 + 1 * l.val = l.val; omega

/-- What point `t` adds to lane `l`: the sum of the hinges of row block `t` of the two arrays at that lane. -/
theorem col_rowsum (c : Dev nD) (t : Fin cfg0.N) (l : Fin 1024) :
    ∑ k : Fin 1000, hinge (scores m c t (ix2 k l)) (labels m c t (ix2 k l)) = rowsum (X m c) (Y m c) t.val l := by
  have hN : cfg0.N = 16 := N_0
  have ht := t.isLt
  unfold rowsum
  rw [← Fin.sum_univ_eq_sum_range (fun r => cell (X m c) (Y m c) (t.val * 1000 + r) l) 1000]
  refine Finset.sum_congr rfl fun k _ => ?_
  have hk : t.val * 1000 + k.val < 16000 := by have := k.isLt; omega
  rw [cell_of_lt _ _ _ hk, scores_apply m c t k l hk, labels_apply m c t k l hk]

/-! ## The accumulator and the output block after each point -/

/-- After a sweep's first step the accumulator is the step's row over the zero row. -/
theorem snd_first (c : Dev nD) (t : Fin cfg0.N) (h0 : t.val % 8 = 0) :
    (outsAt0 m c t.val t.isLt).2 = k0_pay2 (labels m c t) (scores m c t) (scores m c t) (k0_pay1 (F := Ideal)) := by
  have h1 : ¬t.val % 8 = 7 := by omega
  rw [outsAt0_A m c t h0 h1]
  dsimp only
  exact Pieces.scratch_A (F := Ideal) c (grid0.coords t) (ms0_0 t) (hs0_0 t) (ms0_1 t) (hs0_1 t) (ms0_2 t) (hs0_2 t)
      scM0_0 (Memref.isWhole_whole _)
      ((hcond0_0 t).mpr h0) (fun hh => h1 ((hcond0_1 t).mp hh)) (iblk m c 0 t) (iblk m c 1 t)

/-- After any later step it is the step's row over what the point before left. -/
theorem snd_succ (c : Dev nD) (t : Fin cfg0.N) (h0 : ¬t.val % 8 = 0) :
    (outsAt0 m c t.val t.isLt).2
      = k0_pay2 (labels m c t) (scores m c t) (scores m c t)
          (outsAt0 m c (t.val - 1) (Nat.lt_of_le_of_lt (Nat.sub_le _ _) t.isLt)).2 := by
  by_cases h1 : t.val % 8 = 7
  · rw [outsAt0_C m c t h0 h1]
    dsimp only
    exact Pieces.scratch_C (F := Ideal) c (grid0.coords t) (ms0_0 t) (hs0_0 t) (ms0_1 t) (hs0_1 t) (ms0_2 t) (hs0_2 t)
      scM0_0 (Memref.isWhole_whole _)
      (fun hh => h0 ((hcond0_0 t).mp hh)) ((hcond0_1 t).mpr h1) (iblk m c 0 t) (iblk m c 1 t)
      (outsAt0 m c (t.val - 1) (Nat.lt_of_le_of_lt (Nat.sub_le _ _) t.isLt)).2
  · rw [outsAt0_B m c t h0 h1]
    dsimp only
    exact Pieces.scratch_B (F := Ideal) c (grid0.coords t) (ms0_0 t) (hs0_0 t) (ms0_1 t) (hs0_1 t) (ms0_2 t) (hs0_2 t)
      scM0_0 (Memref.isWhole_whole _)
      (fun hh => h0 ((hcond0_0 t).mp hh)) (fun hh => h1 ((hcond0_1 t).mp hh)) (iblk m c 0 t) (iblk m c 1 t)
      (outsAt0 m c (t.val - 1) (Nat.lt_of_le_of_lt (Nat.sub_le _ _) t.isLt)).2

/-- After a sweep's last step the output block is the lane total of the accumulator that step left. -/
theorem fst_last (c : Dev nD) (t : Fin cfg0.N) (h7 : t.val % 8 = 7) :
    (outsAt0 m c t.val t.isLt).1 = k0_pay3 (outsAt0 m c t.val t.isLt).2 := by
  have h0 : ¬t.val % 8 = 0 := by omega
  rw [snd_succ m c t h0]
  rw [outsAt0_C m c t h0 h7]
  dsimp only
  exact Pieces.out_C (F := Ideal) c (grid0.coords t) (ms0_0 t) (hs0_0 t) (ms0_1 t) (hs0_1 t) (ms0_2 t) (hs0_2 t)
      scM0_0 (Memref.isWhole_whole _)
      (fun hh => h0 ((hcond0_0 t).mp hh)) ((hcond0_1 t).mpr h7) (iblk m c 0 t) (iblk m c 1 t)
      (outsAt0 m c (t.val - 1) (Nat.lt_of_le_of_lt (Nat.sub_le _ _) t.isLt)).2

/-- After point `t`, lane `l` of the accumulator holds the row sums of the blocks of its sweep up to `t`. -/
theorem acc_closed (c : Dev nD) (u : Fin 1) (l : Fin 1024) : ∀ (n : ℕ) (t : Fin cfg0.N), t.val = n →
    (outsAt0 m c t.val t.isLt).2 (ix2 u l)
      = ∑ j ∈ Finset.range (n % 8 + 1), rowsum (X m c) (Y m c) (n - n % 8 + j) l := by
  intro n
  induction n with
  | zero =>
    intro t ht
    rw [snd_first m c t (by omega)]
    refine (Payload.acc_step _ _ _ u l).trans ?_
    rw [Payload.zero_row, zero_add, col_rowsum, ht]
    simp
  | succ n ih =>
    intro t ht
    by_cases h0 : t.val % 8 = 0
    · rw [snd_first m c t h0]
      refine (Payload.acc_step _ _ _ u l).trans ?_
      rw [Payload.zero_row, zero_add, col_rowsum, ht]
      have e : (n + 1) % 8 = 0 := by omega
      rw [e]
      simp
    · rw [snd_succ m c t h0]
      refine (Payload.acc_step _ _ _ u l).trans ?_
      have hp : t.val - 1 < cfg0.N := Nat.lt_of_le_of_lt (Nat.sub_le _ _) t.isLt
      have ih' := ih ⟨t.val - 1, hp⟩ (by show t.val - 1 = n; omega)
      have e1 : (n + 1) % 8 = n % 8 + 1 := by omega
      have e2 : n + 1 - (n % 8 + 1) = n - n % 8 := by omega
      have e3 : n - n % 8 + (n % 8 + 1) = t.val := by omega
      rw [col_rowsum, e1, e2, Finset.sum_range_succ _ (n % 8 + 1), e3]
      exact congrArg (· + rowsum (X m c) (Y m c) t.val l) ih'

/-- After a sweep's last step the output block holds the sweep's total. -/
theorem out_at (c : Dev nD) (t : Fin cfg0.N) (h7 : t.val % 8 = 7) (y : S1x1x1.Idx) :
    (outsAt0 m c t.val t.isLt).1 y = sweepTotal (X m c) (Y m c) (t.val / 8) := by
  rw [fst_last m c t h7, eq_ix3 y]
  refine (Payload.lane_total _ (y 0) (y 1) (y 2)).trans ?_
  unfold sweepTotal
  refine Finset.sum_congr rfl fun l _ => ?_
  rw [acc_closed m c 0 l t.val t rfl, h7]
  have e : t.val - 7 = 8 * (t.val / 8) := by omega
  rw [e]

end Cert.KernelIdeal.Accum

end
-- ==== Proof.KernelRun.lean ====
/-
  The kernel's result over the extended reals.

  * The two [16000, 1024] arrays the region finds are the two arguments re-laid in row-major order (`scores_in`,
    `labels_in`).
  * Sweep `q`'s last step is the one point that writes entry `q` of the [2, 1, 1] result array, and it writes the
    sweep's total there (`flushed_eq`, `cover`, `final2`).
  * After the region the two entries are added and the sum divided by 16384 (`tail_value`); the two sweeps' totals
    add up to the total of the hinge over the whole re-laid arrays, which is the total over the arguments because
    the re-laying is a bijection of index sets (`totals_sum`). So the result is the loss (`kernel_loss`, `run`).
-/
import proofs.«150890_j64244120813576_2_alg».proof.Proof.Gen.KernelIdeal.Frame
import proofs.«150890_j64244120813576_2_alg».proof.Proof.Accum
import proofs.«150890_j64244120813576_2_alg».proof.Proof.Blocks
import Idealize.ShloMosaic.Lib.Pipeline.Value
import Idealize.ShloMosaic.Lib.StableHlo.Run
import Idealize.ShloMosaic.Lib.Tactic

noncomputable section

namespace Cert.KernelIdeal.KernelRun

open Cert.KernelIdeal Cert.KernelIdeal.Gen Idealize.ShloMosaic Idealize.ShloMosaic.TcCoe Idealize.ShloMosaic.Tactic
  Idealize.ShloMosaic.ValueIdx Idealize.SL.Sem Cert.Hinge Cert.KernelIdeal.Accum
open Idealize.ShloMosaic.Pipeline (Dat)

variable (m : (ℓ : Loc nD τ sig) → Buf (Elt Ideal) ℓ) (ρ : Dev nD → PrngReg)

/-! ## The arrays the region finds -/

/-- They are the two arguments re-laid in row-major order. -/
theorem scores_in (c : Dev nD) :
    X m c = shapeCast S16000x1024 (m ((c : Thread nD τ).loc main_arg0)) shapeCasts_S16384x1000_S16000x1024 := by
  show StableHlo.after hostOps0 (fun b => m (c, b)) (Proc.devRef .tc main_v0) = _
  after_results
  rfl

theorem labels_in (c : Dev nD) :
    Y m c = shapeCast S16000x1024 (m ((c : Thread nD τ).loc main_arg1)) shapeCasts_S16384x1000_S16000x1024 := by
  show StableHlo.after hostOps0 (fun b => m (c, b)) (Proc.devRef .tc main_v1) = _
  after_results
  rfl

/-! ## The result array after the region -/

/-- The two sweeps' totals, as a [2, 1, 1] array. -/
def totals (c : Dev nD) : S2x1x1.Idx → EReal := fun j => sweepTotal (X m c) (Y m c) (j 0).val

/-- A sweep's last step writes back its total: the block it flushes is entry `t / 8` of `totals`. -/
theorem flushed_eq (c : Dev nD) (t : Fin cfg0.N) (hf : (cfg0.win 2).flush t = true) :
    (dats m 0 c).flushed 2 t = ((cfg0.win 2).blk t).view.read (Elt Ideal) (totals m c) := by
  have h7 : t.val % 8 = 7 := (flush0_2 t).mp hf
  obtain ⟨-, -, -, -, e4, e5, e6⟩ := idx_facts t
  show (cfg0.win 2).cut (grid0.coords t) ((dats m 0 c).after 2 t) = _
  rw [after0_2]
  funext y
  show (outsAt0 m c t.val t.isLt).1 y = totals m c (((cfg0.win 2).blk t).view.emb y)
  refine (out_at m c t h7 y).trans ?_
  unfold totals
  refine congrArg (sweepTotal (X m c) (Y m c)) ?_
  have hy : (y 0).val < 1 := (y 0).isLt
  show t.val / 8 = win0_2.index t (0 : Fin 3) * 1 + 1 * (y 0).val
  omega

/-- An index of the result array is in point `t`'s block iff each coordinate is in the block's range on its axis. -/
theorem mem_blk (t : Fin cfg0.N) (i : S2x1x1.Idx) :
    i ∈ ((cfg0.win 2).blk t).view.set
      ↔ ∀ a : Fin 3, win0_2.index t a * S1x1x1.size a ≤ (i a).val ∧ (i a).val < win0_2.index t a * S1x1x1.size a + S1x1x1.size a := by
  show i ∈ ((View.whole main_v2).slice (win0_2.rect t)).set ↔ _
  rw [View.set_slice_whole, Rect.mem_set_unit]
  exact Iff.rfl

/-- The block of a last step whose sweep is `q` holds exactly the entry (q, 0, 0). -/
theorem mem_of_sweep (t : Fin cfg0.N) (i : S2x1x1.Idx) (hq : t.val / 8 = (i 0).val) : i ∈ ((cfg0.win 2).blk t).view.set := by
  have h1 : (i 1).val < 1 := (i 1).isLt
  have h2 : (i 2).val < 1 := (i 2).isLt
  obtain ⟨-, -, -, -, e4, e5, e6⟩ := idx_facts t
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1 ≤ (i 2).val ∧ (i 2).val < win0_2.index t (2 : Fin 3) * 1 + 1; omega

/-- Every entry of the result array is written back by some point: entry 0 at point 7, entry 1 at point 15. -/
theorem cover (c : Dev nD) (i : S2x1x1.Idx) :
    ∃ t : Fin cfg0.N, (cfg0.win 2).flush t = true ∧ i ∈ ((cfg0.win 2).blk t).view.set := by
  have h0 : (i 0).val < 2 := (i 0).isLt
  rcases (by omega : (i 0).val = 0 ∨ (i 0).val = 1) with hq | hq
  · exact ⟨t0_7, (flush0_2 t0_7).mpr rfl, mem_of_sweep t0_7 i (by rw [hq]; rfl)⟩
  · exact ⟨t0_15, (flush0_2 t0_15).mpr rfl, mem_of_sweep t0_15 i (by rw [hq]; rfl)⟩

/-- So the result array ends holding the two sweeps' totals. -/
theorem final2 (c : Dev nD) : (dats m 0 c).arrAt 2 cfg0.N = totals m c :=
  (dats m 0 c).arrAt_eq_of_cover 2 (totals m c) (flushed_eq m c) (cover c)

/-! ## The lines after the region -/

/-- Entry `q` of the totals, sliced out as a [1, 1, 1] array. -/
theorem slice0 (c : Dev nD) :
    extractStridedSlice S1x1x1 ![0, 0, 0] (totals m c) slices_S2x1x1_S1x1x1_0_0_0
      = fun _ => sweepTotal (X m c) (Y m c) 0 := by
  funext j
  have hj : (j 0).val < 1 := (j 0).isLt
  unfold extractStridedSlice totals
  refine congrArg (sweepTotal (X m c) (Y m c)) ?_
  show 0 + (j 0).val = 0
  omega

theorem slice1 (c : Dev nD) :
    extractStridedSlice S1x1x1 ![1, 0, 0] (totals m c) slices_S2x1x1_S1x1x1_1_0_0
      = fun _ => sweepTotal (X m c) (Y m c) 1 := by
  funext j
  have hj : (j 0).val < 1 := (j 0).isLt
  unfold extractStridedSlice totals
  refine congrArg (sweepTotal (X m c) (Y m c)) ?_
  show 1 + (j 0).val = 1
  omega

/-- The result array as the lines after the region read it. -/
theorem arr_total (c : Dev nD) :
    Pipeline.withArrays (cfgs 0).spec c (V0 m c) (fun w => (dats m 0 c).arrAt w (cfgs 0).N) (Proc.devRef .tc main_v2)
      = totals m c :=
  (Pipeline.withArrays_arr spec0 launch0.win.arr_inj c _ _ 2).trans (final2 m c)

/-- The program's result: the sum of the two sweeps' totals, divided by 16384. -/
theorem tail_value (c : Dev nD) :
    Pipeline.afterTail₀ cfgs (dats m) 0 (V0 m) [hostOps1] c main_v8
      = fun _ => Ideal.div (sweepTotal (X m c) (Y m c) 0 + sweepTotal (X m c) (Y m c) 1) ((16384 : ℝ) : EReal) := by
  unfold Pipeline.afterTail₀
  show StableHlo.after hostOps1 _ (Proc.devRef .tc main_v8) = _
  after_results
  rw [arr_total m c, slice0 m c, slice1 m c]
  funext i
  show Ideal.div (sweepTotal (X m c) (Y m c) 0 + sweepTotal (X m c) (Y m c) 1) (Ideal.ofBits .f32 0x46800000#32) = _
  rw [word_16384]

/-! ## The result is the loss -/

/-- The two sweeps' totals add up to the total of the hinge over all score / label pairs of the arguments. -/
theorem totals_sum (c : Dev nD) :
    sweepTotal (X m c) (Y m c) 0 + sweepTotal (X m c) (Y m c) 1
      = ∑ p, hinge (m ((c : Thread nD τ).loc main_arg0) p) (m ((c : Thread nD τ).loc main_arg1) p) := by
  rw [total_of_blocks (X m c) (Y m c), scores_in, labels_in]
  unfold shapeCast
  exact Equiv.sum_comp (Shape.reshapeEquiv shapeCasts_S16384x1000_S16000x1024)
    (fun p => hinge (m ((c : Thread nD τ).loc main_arg0) p) (m ((c : Thread nD τ).loc main_arg1) p))

/-- The kernel's result is the loss of its two arguments. -/
theorem kernel_loss (c : Dev nD) :
    Pipeline.afterTail₀ cfgs (dats m) 0 (V0 m) [hostOps1] c main_v8
      = fun _ => loss (m ((c : Thread nD τ).loc main_arg0)) (m ((c : Thread nD τ).loc main_arg1)) := by
  rw [tail_value, totals_sum]
  rfl

/-- The run, read: the result at the loss of the arguments, the arguments unchanged. -/
theorem run : θ_run defs (onTc (τ := τ) (main (F := Ideal))) ⟨m, fun _ => 0, ρ⟩ fun r => ∀ c : Dev nD,
      r.2.mem ((c : Thread nD τ).loc main_v8)
        = (fun _ => loss (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v8 (Pipeline.mem_restRefs_of main_v8 (by decide) (by decide))).trans (kernel_loss m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelRun

end
-- ==== Proof.RefValue.lean ====
/-
  The reference computes the loss.

  It forms the hinge of every score against its label (the score times the selected sign, subtracted from one,
  clipped at zero), sums each of the 1000 class columns over the 16384 rows, divides each column sum by 16384, and
  sums the 1000 quotients. Division by 16384 distributes over the sum of the columns, and summing column by column
  visits every (row, class) pair once, so the result is the grand total of the hinges divided by 16384.
-/
import proofs.«150890_j64244120813576_2_alg».proof.Proof.Gen.ReferenceIdeal.Read
import proofs.«150890_j64244120813576_2_alg».proof.Proof.HingeLaw
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
  Cert.Hinge

/-- The clipped margin at a (row, class) pair is the hinge of the score there against the label there. -/
theorem hinge_at (x0 x1 : S16384x1000.Idx → EReal) (p : S16384x1000.Idx) :
    val_main_v8 (F := Ideal) x0 x1 p = hinge (x0 p) (x1 p) := by
  rw [val_main_v8_apply, val_main_v6_apply, val_main_v7_apply, val_main_v5_apply, val_main_v4_apply, val_main_v3_apply,
    val_main_v2_apply, val_main_v1_apply, val_main_v0_apply, val_main_call0_v0_apply, val_main_call0_v1_apply]
  exact hinge_of_sign (x0 p) (x1 p)

/-- The index the column sum of class `j` reads at row `k` is (k, j). -/
theorem idx_col (j : S1000.Idx) (k : Fin 16384) : idx_main_v9 j k = (ix2 k (j 0) : S16384x1000.Idx) :=
  funext fun a => by match a with | ⟨0, _⟩ => rfl | ⟨1, _⟩ => rfl

/-- The mean of class `j`: the sum of its column of hinges, divided by 16384. -/
theorem mean_at (x0 x1 : S16384x1000.Idx → EReal) (j : S1000.Idx) :
    val_main_v11 (F := Ideal) x0 x1 j
      = Ideal.div (∑ k : Fin 16384, hinge (x0 (ix2 k (j 0))) (x1 (ix2 k (j 0)))) ((16384 : ℝ) : EReal) := by
  rw [val_main_v11_apply, val_main_v9_apply, val_main_v10_apply]
  show Ideal.div (Ideal.ofBits .f32 0x00000000#32 + ∑ k : Fin 16384, val_main_v8 (F := Ideal) x0 x1 (idx_main_v9 j k))
    (Ideal.ofBits .f32 0x46800000#32) = _
  rw [Ideal.ofBits_zero_f32, zero_add, word_16384]
  refine congrArg (fun s : EReal => Ideal.div s ((16384 : ℝ) : EReal)) (Finset.sum_congr rfl fun k _ => ?_)
  rw [hinge_at, idx_col]

/-- The reference's result is the loss of its two arguments. -/
theorem ref_loss (x0 x1 : S16384x1000.Idx → EReal) (i : S_.Idx) : val_main_v12 (F := Ideal) x0 x1 i = loss x0 x1 := by
  rw [val_main_v12_apply]
  show Ideal.ofBits .f32 0x00000000#32 + ∑ j : S1000.Idx, val_main_v11 (F := Ideal) x0 x1 j = _
  rw [Ideal.ofBits_zero_f32, zero_add]
  simp only [mean_at]
  rw [sum_div Finset.univ _ (by norm_num : (0 : ℝ) < 16384)]
  unfold loss
  refine congrArg (fun s : EReal => Ideal.div s ((16384 : ℝ) : EReal)) ?_
  rw [sum_idx2 (fun p => hinge (x0 p) (x1 p))]
  refine Finset.sum_comm.trans ?_
  exact Finset.sum_congr rfl fun k _ => sum_idx1 (fun b : Fin 1000 => hinge (x0 (ix2 k b)) (x1 (ix2 k b)))

end Cert.ReferenceIdeal.RefValue

end
-- ==== Proof.lean ====
/-
  One-vs-rest hinge loss: a kernel that sums the hinge over a re-laid copy of its arguments against the reference's
  sum over classes of per-class means, equal over the extended reals.

  For scores `x` and labels `y` of shape [16384, 1000] the hinge at a pair is `max (1 - s) 0` with `s = x` when
  `0 ≤ y` and `s = -x` otherwise, and the loss is the total of the hinge over all pairs divided by 16384
  (Proof/HingeLaw.lean).

  * The reference multiplies the score by a selected sign `±1` (the same `s` on every extended real), sums each class
    column over the rows, divides each column sum by 16384 and adds the 1000 quotients. Dividing by 16384 distributes
    over a sum of extended reals, and the columns visit every pair once: the loss (Proof/RefValue.lean).
  * The kernel re-lays both arguments as [16000, 1024] arrays in row-major order, cuts them into sixteen blocks of
    1000 rows, and runs two sweeps of eight blocks; a sweep adds each block's column sums of hinges into a
    1024-lane accumulator that it zeroes at its first block, and at its last block writes the sum of the lanes to its
    own entry of a two-entry result (Proof/Pieces.lean, Proof/Payload.lean, Proof/Accum.lean). The two entries are
    added and divided by 16384. The sixteen blocks tile the re-laid arrays, the re-laying is a bijection of index
    sets, and finite sums of extended reals may be regrouped and reordered: the loss again (Proof/Blocks.lean,
    Proof/KernelRun.lean).

  No step uses that the inputs are finite. The frames of the two kernels are the generated frame runs; the
  reference's frame is its generated run with the result dropped; nothing was rewritten between the kernel and its
  idealization.
-/
import proofs.«150890_j64244120813576_2_alg».proof.Defs
import proofs.«150890_j64244120813576_2_alg».proof.Proof.Gen.Kernel
import proofs.«150890_j64244120813576_2_alg».proof.Proof.Gen.Kernel.Skeleton
import proofs.«150890_j64244120813576_2_alg».proof.Proof.Gen.Kernel.Launch
import proofs.«150890_j64244120813576_2_alg».proof.Proof.Gen.Kernel.Points
import proofs.«150890_j64244120813576_2_alg».proof.Proof.Gen.Kernel.Frame
import proofs.«150890_j64244120813576_2_alg».proof.Proof.Gen.KernelIdeal
import proofs.«150890_j64244120813576_2_alg».proof.Proof.Gen.KernelIdeal.Skeleton
import proofs.«150890_j64244120813576_2_alg».proof.Proof.Gen.KernelIdeal.Launch
import proofs.«150890_j64244120813576_2_alg».proof.Proof.Gen.KernelIdeal.Points
import proofs.«150890_j64244120813576_2_alg».proof.Proof.Gen.KernelIdeal.Frame
import proofs.«150890_j64244120813576_2_alg».proof.Proof.Gen.ReferenceIdeal
import proofs.«150890_j64244120813576_2_alg».proof.Proof.Gen.Pre_finite_inputs
import proofs.«150890_j64244120813576_2_alg».proof.Proof.Gen.ReferenceIdeal.Run
import proofs.«150890_j64244120813576_2_alg».proof.Proof.Gen.ReferenceIdeal.Read
import proofs.«150890_j64244120813576_2_alg».proof.Proof.KernelRun
import proofs.«150890_j64244120813576_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, both programs end with the loss of those arguments. -/
theorem algebraic : Cert.algebraic_KernelIdeal_ReferenceIdeal := by
  intro m ρ m' ρ' _ hagree
  refine ⟨fun c _ => Cert.Hinge.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2]
  funext i
  exact Cert.ReferenceIdeal.RefValue.ref_loss _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
